-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v10) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  main_v3
-- ==== Kernel.lean ====
abbrev S8192x128 : Shape := ⟨2, ![8192, 128]⟩
abbrev S8192x8192 : Shape := ⟨2, ![8192, 8192]⟩
abbrev S256x128 : Shape := ⟨2, ![256, 128]⟩
abbrev S256x8192 : Shape := ⟨2, ![256, 8192]⟩
abbrev S256x256 : Shape := ⟨2, ![256, 256]⟩

abbrev nBuf : Space → Nat
  | .hbm => 2
  | .vmem => 5
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .local _ .vmem, ⟨0, _⟩ => ⟨S256x128, .f32⟩
  | .local _ .vmem, ⟨1, _⟩ => ⟨S256x128, .f32⟩
  | .local _ .vmem, ⟨2, _⟩ => ⟨S8192x128, .f32⟩
  | .local _ .vmem, ⟨3, _⟩ => ⟨S256x8192, .f32⟩
  | .local _ .vmem, ⟨4, _⟩ => ⟨S256x8192, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def k0_off1 (i : grid0.Coords) : Fin 2 → Nat :=
  let c0_5 : Index := 0#32
  let arg0 : BitVec 32 := BitVec.ofNat 32 (i 0).val
  let c256_i32 : BitVec 32 := 256#32
  let v4 : BitVec 32 := Scalar.muli arg0 c256_i32
  let v5 : Index := Scalar.indexCast v4
  ![0, v5.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8192x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S256x128_S256x128_0_0 : ∀ a, (![0, 0] : Fin 2 → Nat) a + S256x128.size a ≤ S256x128.size a
  h_S256x128 : 0 < S256x128.numel
  inb_S8192x128_S8192x128_0_0 : ∀ a, (![0, 0] : Fin 2 → Nat) a + S8192x128.size a ≤ S8192x128.size a
  h_S8192x128 : 0 < S8192x128.numel
  inb_S256x8192_S256x8192_0_0 : ∀ a, (![0, 0] : Fin 2 → Nat) a + S256x8192.size a ≤ S256x8192.size a
  h_S256x8192 : 0 < S256x8192.numel
  h_S256x256 : 0 < S256x256.numel
  shapeCasts_S256x256_S256x256 : S256x256.ShapeCasts S256x256
  iota_S256x256_d0_w32 : S256x256.Iotas .tc 32 [0]
  iota_S256x256_d1_w32 : S256x256.Iotas .tc 32 [1]
  dot_S256x128_S8192x128_S256x8192_1_1_0_0_n_n_wf : DotDims.WF S256x128 S8192x128 S256x8192 [1] [1] [0] [0] [] []
  hrank0 : 0 < grid0.rank
  k0_off1_inb : ∀ i : grid0.Coords, ∀ a, (k0_off1 i) a + S256x256.size a ≤ S256x8192.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .f32 = 32 ∨ (Rect.block (s := S8192x128) S256x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8192x128.size a ≤ S8192x128.size a
  hwx0_1 : ∀ i : grid0.Coords, EltTy.bits .f32 = 32 ∨ (Rect.block (s := S8192x128) S8192x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_arg0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S8192x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x128 : Shape := ⟨2, ![8192, 128]⟩
abbrev S128x8192 : Shape := ⟨2, ![128, 8192]⟩
abbrev S8192x8192 : Shape := ⟨2, ![8192, 8192]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S128x8192, .f32⟩
  | .hbm, ⟨2, _⟩ => ⟨S8192x8192, .f32⟩
  | .hbm, ⟨3, _⟩ => ⟨S8192x8192, .i32⟩
  | .hbm, ⟨4, _⟩ => ⟨S8192x8192, .i32⟩
  | .hbm, ⟨5, _⟩ => ⟨S_, .i32⟩
  | .hbm, ⟨6, _⟩ => ⟨S8192x8192, .i32⟩
  | .hbm, ⟨7, _⟩ => ⟨S8192x8192, .i32⟩
  | .hbm, ⟨8, _⟩ => ⟨S8192x8192, .i1⟩
  | .hbm, ⟨9, _⟩ => ⟨S8192x8192, .f32⟩
  | .hbm, ⟨10, _⟩ => ⟨S_, .f32⟩
  | .hbm, ⟨11, _⟩ => ⟨S8192x8192, .f32⟩
  | .hbm, ⟨12, _⟩ => ⟨S8192x8192, .f32⟩
  | .hbm, ⟨13, _⟩ => ⟨S8192x8192, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_c : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_cst : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩

abbrev nD : Nat := 1
abbrev τ : Topo := Topo.v7x

variable {F : FTy → Type} [FloatOps F]

class Facts₀ : Prop where
  transposes_S8192x128_S128x8192_1_0 : S8192x128.Transposes [1, 0] S128x8192
  bcast_S_S8192x8192 : S_.BroadcastsInDim S8192x8192 (![] : Fin 0 → Fin S8192x8192.rank)
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.BandRun.lean ====
/-
  The run of the band kernel, for any float values.

  The grid has 32 points. At point t the body is handed rows [256·t, 256·t + 256) of the input matrix h (first
  window), the whole of h (second window, fetched once and found again at every later point), and an output
  buffer of 256 × 8192. It stores the product of the row band with the transpose of h over the whole buffer,
  then reads back the 256 × 256 square at columns [256·t, 256·t + 256), replaces that square's own diagonal by
  zero, and stores the square again. What the buffer then holds is the two stores laid over one another
  (`band`); the write-back puts it at rows [256·t, 256·t + 256) of the result.

  Both input windows look at ONE array. The launch therefore cannot hand each of them the array outright: the
  array's full share is cut into its left and right halves, one half per window (`deal_shares`); both halves see
  the same contents, none may write, and the result array is held outright. With that, every weakly fair
  execution terminates without a fault, each array of the pipeline ending at the contents the write-backs compute
  (`run_main`); the input array is never written back, so it ends as it began (`frame`).
-/
import proofs.«133447_g5858335392468_pilotgen1_76_8_alg».proof.Proof.Gen.Kernel.Launch
import proofs.«133447_g5858335392468_pilotgen1_76_8_alg».proof.Proof.Gen.Kernel.Skeleton
import proofs.«133447_g5858335392468_pilotgen1_76_8_alg».proof.Proof.Gen.Kernel.Points
import Idealize.ShloMosaic.Lib.Pipeline.FrameBody
import Idealize.ShloMosaic.Lib.Pipeline.Value
import Idealize.ShloMosaic.Lib.Tactic

set_option maxRecDepth 16384

noncomputable section

namespace Cert.Kernel.Band

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and a window's block at a point -/

/-- The program is the region alone, so the region finds every buffer as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row band is fetched at every point; a body that leaves it in place finds it there. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole matrix is fetched at the first point only; its block index never moves, so a body that leaves it in
    place finds it at every point. -/
theorem before_whole_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole row band, the whole matrix, the whole output buffer. -/
abbrev rRows : Rect S256x128 := Rect.unit (s := S256x128) ![0, 0] S256x128.size inb_S256x128_S256x128_0_0
abbrev rAll : Rect S8192x128 := Rect.unit (s := S8192x128) ![0, 0] S8192x128.size inb_S8192x128_S8192x128_0_0
abbrev rOut : Rect S256x8192 := Rect.unit (s := S256x8192) ![0, 0] S256x8192.size inb_S256x8192_S256x8192_0_0
/-- The square of the output buffer that meets the diagonal at grid coordinates `i`. -/
abbrev rDiag (i : grid0.Coords) : Rect S256x8192 := Rect.unit (s := S256x8192) (k0_off1 i) S256x256.size (k0_off1_inb i)

/-- The product stored over the whole buffer. -/
def prod (x0 : Vec F S256x128 .f32) (x1 : Vec F S8192x128 .f32) : Vec F S256x8192 .f32 :=
  k0_pay1 (View.ld x0 rRows) (View.ld x1 rAll)

/-- The output buffer after the body: the square with its diagonal zeroed, laid over the product. -/
def band (i : grid0.Coords) (x0 : Vec F S256x128 .f32) (x1 : Vec F S8192x128 .f32) : Vec F S256x8192 .f32 :=
  View.canon [⟨rDiag i, k0_pay2 (fun j => View.canon [⟨rOut, prod x0 x1⟩] ((rDiag i).toLoadRect.idx j))⟩, ⟨rOut, prod x0 x1⟩]

/-! ## The body's triple -/

set_option maxHeartbeats 1000000 in
/-- The body on whole staging buffers, the inputs' at read contents `x0`, `x1` and the output's at anything, runs to
    the continuation holding the inputs' as they were and the output's at `band`. -/
theorem sound_kernel (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (band i x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_junk_eq_canon, View.readAt_writes_junk_eq_canon]
  rfl

/-! ## The proof data -/

/-- Per core: the arrays as the region finds them; after the body each input's buffer at its block and the output's
    at `band` of the two input blocks; nothing carried between points; the input array's share cut in two, one half
    per input window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => band (grid0.coords t) (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_whole (c : Dev nD) (t : Fin cfg0.N) : (dats m 0 c).after 1 t = iblk m c 1 t := by dsimp only [dats]
theorem after_out (c : Dev nD) (t : Fin cfg0.N) : (dats m 0 c).after 2 t = band (grid0.coords t) (iblk m c 0 t) (iblk m c 1 t) := by dsimp only [dats]

theorem before_rows (c : Dev nD) (t : Fin cfg0.N) (d) : (dats m 0 c).before 0 t d = iblk m c 0 t :=
  before_rows_of m (dats m 0 c) (A_eq m c 0) (after_rows m c) t d
theorem before_whole (c : Dev nD) (t : Fin cfg0.N) (d) : (dats m 0 c).before 1 t d = iblk m c 1 t :=
  before_whole_of m (dats m 0 c) (A_eq m c 1) (after_whole m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; what is owed passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_whole]
  rw [show (dats m 0 c).Φ t.succ = (dats m 0 c).Φ t.castSucc from rfl,
    show (dats m 0 c).owesAt () t.succ = (dats m 0 c).owesAt () t.castSucc from rfl,
    after_rows, after_whole, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## One array behind two windows: its share cut in two -/

/-- The two buffers behind the three windows, each whole at the full share, give the three windows' holdings: the
    input array's full share is its left half and its right half, one per input window, at the same contents. -/
theorem deal_shares (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have two : ∀ Φ : Ref sig .tc → sProp 𝕄, bigSep ({main_arg0, main_v0} : Finset (Ref sig .tc)) Φ = iprop(Φ main_arg0 ∗ Φ main_v0) := fun Φ => by
    rw [bigSep_insert (by decide), bigSep_singleton]; rfl
  unfold Pipeline.arrBufs Dat.arrays
  rw [show Finset.univ.image (Pipeline.arrRef spec0) = ({main_arg0, main_v0} : Finset (Ref sig .tc)) from by decide, bigSep_W0, two]
  rw [(arr_whole0 0).set_eq_univ, (arr_whole0 2).set_eq_univ]
  iintro ⟨Ha, Hv⟩
  ihave Ha2 := (pointsTo_share (PosShare.mem_left_op_right fullShare)).1 $$ Ha
  icases Ha2 with ⟨Hl, Hr⟩
  isplitl [Hl]; · iexact Hl
  isplitl [Hr]; · iexact Hr
  iexact Hv

/-! ## The launch and the run -/

set_option backward.isDefEq.respectTransparency.types false in
/-- At the compiled mesh, for any values, from any memory with zero counters: every weakly fair execution of the
    program terminates without a fault, and every final state has each window's array at what the write-backs
    compute from the proof data. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main fun c => (main_chain c).trans rfl)
    (hsplit := deal_shares m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The input array is staged by input windows only and never written back: it ends as launched. -/
theorem kept_input (r : PUnit × MemSt nD τ sig (Elt F))
    (h : ∀ (c : Dev nD) (w : Fin cfg0.W), r.2.mem ((cfg0.spec w).arr.view.loc (c.tc : Thread nD τ)) = (dats m 0 c).arrAt w cfg0.N) (c : Dev nD) :
    r.2.mem ((c.tc : Thread nD τ).loc main_arg0) = m ((c.tc : Thread nD τ).loc main_arg0) :=
  (h c 0).trans (((dats m 0 c).arrAt_in 0 rfl _).trans (A_eq m c 0))

/-- The frame: the program runs to the end, faults nowhere, and leaves its argument as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_input m r h c) (run_main m ρ)

end Cert.Kernel.Band

end
-- ==== Proof.BandRunIdeal.lean ====
/-
  The run of the band kernel, for any float values.

  The grid has 32 points. At point t the body is handed rows [256·t, 256·t + 256) of the input matrix h (first
  window), the whole of h (second window, fetched once and found again at every later point), and an output
  buffer of 256 × 8192. It stores the product of the row band with the transpose of h over the whole buffer,
  then reads back the 256 × 256 square at columns [256·t, 256·t + 256), replaces that square's own diagonal by
  zero, and stores the square again. What the buffer then holds is the two stores laid over one another
  (`band`); the write-back puts it at rows [256·t, 256·t + 256) of the result.

  Both input windows look at ONE array. The launch therefore cannot hand each of them the array outright: the
  array's full share is cut into its left and right halves, one half per window (`deal_shares`); both halves see
  the same contents, none may write, and the result array is held outright. With that, every weakly fair
  execution terminates without a fault, each array of the pipeline ending at the contents the write-backs compute
  (`run_main`); the input array is never written back, so it ends as it began (`frame`).
-/
import proofs.«133447_g5858335392468_pilotgen1_76_8_alg».proof.Proof.Gen.KernelIdeal.Launch
import proofs.«133447_g5858335392468_pilotgen1_76_8_alg».proof.Proof.Gen.KernelIdeal.Skeleton
import proofs.«133447_g5858335392468_pilotgen1_76_8_alg».proof.Proof.Gen.KernelIdeal.Points
import Idealize.ShloMosaic.Lib.Pipeline.FrameBody
import Idealize.ShloMosaic.Lib.Pipeline.Value
import Idealize.ShloMosaic.Lib.Tactic

set_option maxRecDepth 16384

noncomputable section

namespace Cert.KernelIdeal.Band

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them, and a window's block at a point -/

/-- The program is the region alone, so the region finds every buffer as launched. -/
abbrev V (c : Dev nD) (b : Ref sig .tc) : Buf (Elt F) ((c : Thread nD τ).loc b) := m ((c : Thread nD τ).loc b)

/-- Window `w`'s block at point `t`, read off its array. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The row band is fetched at every point; a body that leaves it in place finds it there. -/
theorem before_rows_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- The whole matrix is fetched at the first point only; its block index never moves, so a body that leaves it in
    place finds it at every point. -/
theorem before_whole_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## What the body leaves in the output buffer -/

/-- The whole row band, the whole matrix, the whole output buffer. -/
abbrev rRows : Rect S256x128 := Rect.unit (s := S256x128) ![0, 0] S256x128.size inb_S256x128_S256x128_0_0
abbrev rAll : Rect S8192x128 := Rect.unit (s := S8192x128) ![0, 0] S8192x128.size inb_S8192x128_S8192x128_0_0
abbrev rOut : Rect S256x8192 := Rect.unit (s := S256x8192) ![0, 0] S256x8192.size inb_S256x8192_S256x8192_0_0
/-- The square of the output buffer that meets the diagonal at grid coordinates `i`. -/
abbrev rDiag (i : grid0.Coords) : Rect S256x8192 := Rect.unit (s := S256x8192) (k0_off1 i) S256x256.size (k0_off1_inb i)

/-- The product stored over the whole buffer. -/
def prod (x0 : Vec F S256x128 .f32) (x1 : Vec F S8192x128 .f32) : Vec F S256x8192 .f32 :=
  k0_pay1 (View.ld x0 rRows) (View.ld x1 rAll)

/-- The output buffer after the body: the square with its diagonal zeroed, laid over the product. -/
def band (i : grid0.Coords) (x0 : Vec F S256x128 .f32) (x1 : Vec F S8192x128 .f32) : Vec F S256x8192 .f32 :=
  View.canon [⟨rDiag i, k0_pay2 (fun j => View.canon [⟨rOut, prod x0 x1⟩] ((rDiag i).toLoadRect.idx j))⟩, ⟨rOut, prod x0 x1⟩]

/-! ## The body's triple -/

set_option maxHeartbeats 1000000 in
/-- The body on whole staging buffers, the inputs' at read contents `x0`, `x1` and the output's at anything, runs to
    the continuation holding the inputs' as they were and the output's at `band`. -/
theorem sound_kernel (c : Dev nD) (E : Set ℕ) (i : grid0.Coords) (arg1 : Memref sig .tc .vmem S256x128 .f32) (harg1 : arg1.IsWhole) (arg2 : Memref sig .tc .vmem S8192x128 .f32) (harg2 : arg2.IsWhole) (arg3 : Memref sig .tc .vmem S256x8192 .f32) (harg3 : arg3.IsWhole)
    (x0 : Vec F S256x128 .f32) (x1 : Vec F S8192x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (band i x0 x1)) -∗ K ⟨⟩))
      ⊢ wp frame (wpE (defs₀ (F := F)) Variants.none c none) E (cc0__edge_kernel i arg1 harg1 arg2 harg2 arg3 harg3) K := by
  simp only [cc0__edge_kernel_eq_skeleton]; unfold cc0__edge_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_junk_eq_canon, View.readAt_writes_junk_eq_canon]
  rfl

/-! ## The proof data -/

/-- Per core: the arrays as the region finds them; after the body each input's buffer at its block and the output's
    at `band` of the two input blocks; nothing carried between points; the input array's share cut in two, one half
    per input window; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => band (grid0.coords t) (iblk m c 0 t) (iblk m c 1 t)
  Φ _ := iprop(emp)
  q w := match w with
    | ⟨0, _⟩ => fullShare.left
    | ⟨1, _⟩ => fullShare.right
    | ⟨2, _⟩ => fullShare
  owed _ := 0

theorem A_eq (c : Dev nD) (w : Fin cfg0.W) : (dats m 0 c).A w = V m c (Pipeline.arrRef spec0 w) := by
  dsimp only [dats]

theorem after_rows (c : Dev nD) (t : Fin cfg0.N) : (dats m 0 c).after 0 t = iblk m c 0 t := by dsimp only [dats]
theorem after_whole (c : Dev nD) (t : Fin cfg0.N) : (dats m 0 c).after 1 t = iblk m c 1 t := by dsimp only [dats]
theorem after_out (c : Dev nD) (t : Fin cfg0.N) : (dats m 0 c).after 2 t = band (grid0.coords t) (iblk m c 0 t) (iblk m c 1 t) := by dsimp only [dats]

theorem before_rows (c : Dev nD) (t : Fin cfg0.N) (d) : (dats m 0 c).before 0 t d = iblk m c 0 t :=
  before_rows_of m (dats m 0 c) (A_eq m c 0) (after_rows m c) t d
theorem before_whole (c : Dev nD) (t : Fin cfg0.N) (d) : (dats m 0 c).before 1 t d = iblk m c 1 t :=
  before_whole_of m (dats m 0 c) (A_eq m c 1) (after_whole m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

/-- At any point the inputs' buffers hold their blocks, so the body's triple applies; what is owed passes through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_rows, before_whole]
  rw [show (dats m 0 c).Φ t.succ = (dats m 0 c).Φ t.castSucc from rfl,
    show (dats m 0 c).owesAt () t.succ = (dats m 0 c).owesAt () t.castSucc from rfl,
    after_rows, after_whole, after_out]
  iintro ⟨HΦ, Ho, ⟨%d0, H0⟩, ⟨%d1, H1⟩, ⟨%d2, H2⟩⟩
  iapply (sound_kernel c Set.univ (grid0.coords t) _ _ _ _ _ _ (iblk m c 0 t) (iblk m c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation (c : Dev nD) : BodyObligation (dats (F := F) m 0 c) (defs₀ (F := F)) Variants.none () Set.univ := fun t => by
  rw [bigSep_W0, bigSep_W0]
  exact sound_body m c t

/-! ## One array behind two windows: its share cut in two -/

/-- The two buffers behind the three windows, each whole at the full share, give the three windows' holdings: the
    input array's full share is its left half and its right half, one per input window, at the same contents. -/
theorem deal_shares (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have two : ∀ Φ : Ref sig .tc → sProp 𝕄, bigSep ({main_arg0, main_v0} : Finset (Ref sig .tc)) Φ = iprop(Φ main_arg0 ∗ Φ main_v0) := fun Φ => by
    rw [bigSep_insert (by decide), bigSep_singleton]; rfl
  unfold Pipeline.arrBufs Dat.arrays
  rw [show Finset.univ.image (Pipeline.arrRef spec0) = ({main_arg0, main_v0} : Finset (Ref sig .tc)) from by decide, bigSep_W0, two]
  rw [(arr_whole0 0).set_eq_univ, (arr_whole0 2).set_eq_univ]
  iintro ⟨Ha, Hv⟩
  ihave Ha2 := (pointsTo_share (PosShare.mem_left_op_right fullShare)).1 $$ Ha
  icases Ha2 with ⟨Hl, Hr⟩
  isplitl [Hl]; · iexact Hl
  isplitl [Hr]; · iexact Hr
  iexact Hv

/-! ## The launch and the run -/

set_option backward.isDefEq.respectTransparency.types false in
/-- At the compiled mesh, for any values, from any memory with zero counters: every weakly fair execution of the
    program terminates without a fault, and every final state has each window's array at what the write-backs
    compute from the proof data. -/
theorem run_main : θ_run defs (onTc (τ := τ) (main (F := F))) (s₀ m ρ)
    (fun r => ∀ (c : Dev nD) (w : Fin cfg0.W), r.2.mem ((cfg0.spec w).arr.view.loc (c.tc : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj)) (hu₀ := BI.Entails.refl _)
    (V := V m)
    (hmain := Pipeline.hmain_region cfgs 0 defs₀ Variants.none m main fun c => (main_chain c).trans rfl)
    (hsplit := deal_shares m)
    (X := fun _ => iprop(emp)) (Y := fun _ => iprop(emp)) (Z := fun _ => iprop(emp))
    (hX := fun c => by rw [unscopedRest0_eq]; iintro -; isplitr <;> iempintro)
    (hin := fun _ => by rw [scopedRest0_eq]; iintro ⟨-, -⟩; iempintro)
    (hout := fun _ => by rw [scopedRest0_eq]; iintro -; isplitr <;> iempintro)
    (QY := fun _ _ => True)
    (hY := fun c s' => by
      iintro ⟨-, -, HSI⟩; imodintro
      isplitr; · ipureintro; trivial
      iexact HSI)
    (hQ := fun _ h c w => (h c).1 w)

/-- The input array is staged by input windows only and never written back: it ends as launched. -/
theorem kept_input (r : PUnit × MemSt nD τ sig (Elt F))
    (h : ∀ (c : Dev nD) (w : Fin cfg0.W), r.2.mem ((cfg0.spec w).arr.view.loc (c.tc : Thread nD τ)) = (dats m 0 c).arrAt w cfg0.N) (c : Dev nD) :
    r.2.mem ((c.tc : Thread nD τ).loc main_arg0) = m ((c.tc : Thread nD τ).loc main_arg0) :=
  (h c 0).trans (((dats m 0 c).arrAt_in 0 rfl _).trans (A_eq m c 0))

/-- The frame: the program runs to the end, faults nowhere, and leaves its argument as it found it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun r h c => kept_input m r h c) (run_main m ρ)

end Cert.KernelIdeal.Band

end
-- ==== Proof.LibDiagonalBit.lean ====
/-
  The diagonal bit, and multiplying by one less it.

  A mask that singles out the diagonal of a matrix is a one-bit word: the comparison "row counter = column
  counter" of two 32-bit counters. For coordinates below 8192 the counters are equal exactly when the coordinates
  are, so the bit is one on the diagonal and zero off it. Read as a number b, the factor 1 − b is zero on the
  diagonal and one off it; on the extended reals x · 0 = 0 and x · 1 = x for EVERY x, the two infinities
  included, so multiplying by it zeroes the diagonal and keeps the rest whatever the entries are. The number one
  itself is the word 0x3F800000.
-/
import Idealize.ShloMosaic.PureOps.Ideal
import Idealize.ShloMosaic.PureOps.Ideal.Laws
import Idealize.ShloMosaic.Lib.ValueIdx
import Idealize.ShloMosaic.Lib.Affine

noncomputable section

namespace Idealize.ShloMosaic.DiagonalBit

open Idealize.ShloMosaic Idealize.ShloMosaic.ValueIdx

/-- The word 0x3F800000 is the number one. -/
theorem one_word : Ideal.ofBits .f32 0x3F800000#32 = 1 := by
  simp [Ideal.ofBits, Ideal.ieee, -EReal.coe_mul]; norm_num

/-- Two counters below 8192 are the same 32-bit word exactly when they are the same number. -/
theorem counters_eq_iff {a b : Nat} (ha : a < 8192) (hb : b < 8192) : BitVec.ofNat 32 a = BitVec.ofNat 32 b ↔ a = b := by
  constructor
  · intro h
    have := congrArg BitVec.toNat h
    simp only [BitVec.toNat_ofNat] at this
    omega
  · rintro rfl; rfl

/-- The comparison bit of two such counters: one on the diagonal, zero off it. -/
theorem eq_bit {a b : Nat} (ha : a < 8192) (hb : b < 8192) :
    IntOp.cmpi .eq (BitVec.ofNat 32 a) (BitVec.ofNat 32 b) = if a = b then 1#1 else 0#1 := by
  split
  · rename_i h; exact IntOp.cmpi_eq.mpr ((counters_eq_iff ha hb).mpr h)
  · rename_i h
    exact eq_zero_of_ne_one fun h1 => h ((counters_eq_iff ha hb).mp (IntOp.cmpi_eq.mp h1))

/-- Multiplying by one less the diagonal bit: zero on the diagonal, the factor itself off it, whatever the factor. -/
theorem mul_one_sub_bit (x : EReal) (d : Prop) [Decidable d] :
    x * ((1 : EReal) - (((if d then 1#1 else 0#1 : BitVec 1).toNat : ℝ) : EReal)) = if d then 0 else x := by
  have one_sub_one : (1 : EReal) - 1 = 0 := by rw [← EReal.coe_one, ← EReal.coe_sub, sub_self, EReal.coe_zero]
  split
  · have e : (((1#1 : BitVec 1).toNat : ℝ) : EReal) = 1 := by simp
    rw [e, one_sub_one, mul_zero]
  · have e : (((0#1 : BitVec 1).toNat : ℝ) : EReal) = 0 := by simp
    rw [e, sub_zero, mul_one]

end Idealize.ShloMosaic.DiagonalBit

end
-- ==== Proof.Gram.lean ====
/-
  The pairwise inner products of the rows of a matrix, with the diagonal set to zero.

  For h of 8192 rows and 128 columns over the extended reals, `gram h` at (r, c) is the sum over k of
  h[r,k] · h[c,k] when r ≠ c, and 0 when r = c. Two ways of putting the zeros there meet it: choosing between the
  literal 0 and the inner product by the bit that says whether r = c, and multiplying the inner product by one
  less that bit.
-/
import proofs.«133447_g5858335392468_pilotgen1_76_8_alg».proof.Proof.LibDiagonalBit

noncomputable section

open scoped BigOperators

namespace Cert.Gram

open Idealize.ShloMosaic Idealize.ShloMosaic.ValueIdx

/-- The input matrix's shape and the result's. -/
abbrev SIn : Shape := ⟨2, ![8192, 128]⟩
abbrev SOut : Shape := ⟨2, ![8192, 8192]⟩

/-- The inner product of rows `r` and `c`. -/
def rowDot (h : SIn.Idx → EReal) (r c : Fin 8192) : EReal := ∑ k : Fin 128, h (ix2 r k) * h (ix2 c k)

/-- The inner products of all pairs of rows, zero on the diagonal. -/
def gram (h : SIn.Idx → EReal) : SOut.Idx → EReal :=
  fun i => if (i 0).val = (i 1).val then 0 else rowDot h (i 0) (i 1)

end Cert.Gram

end
-- ==== Proof.GramRef.lean ====
/-
  The reference computes `gram`.

  Its result at (r, c) is the inner product of rows r and c — the second factor of each term is read through a
  transpose, so it is h[c,k] again — times one less the bit "r + 0 = c" read as a number: `gram h` at (r, c) by
  the law for that factor.
-/
import proofs.«133447_g5858335392468_pilotgen1_76_8_alg».proof.Proof.Gen.ReferenceIdeal.Read
import proofs.«133447_g5858335392468_pilotgen1_76_8_alg».proof.Proof.Gram

noncomputable section

open scoped BigOperators

namespace Cert.ReferenceIdeal.RefValue

open Cert.ReferenceIdeal Cert.ReferenceIdeal.Read Cert.Gram Idealize.ShloMosaic.DiagonalBit
open Idealize.ShloMosaic Idealize.ShloMosaic.ValueIdx

/-- The reference's last stage, at the ideal instance, is `gram` of its argument. -/
theorem ref_eq_gram (h : (⟨S8192x128, .f32⟩ : BufTy).Contents (Elt Ideal)) : val_main_v10 (F := Ideal) h = gram h := by
  funext i
  have el : ∀ k : Fin 128, lidx_main_v1 i k = ix2 (i 0) k := fun k => funext fun a => Fin.ext (by
    match a with
    | ⟨0, _⟩ => rfl
    | ⟨1, _⟩ => rfl)
  have er : ∀ k : Fin 128, idx_main_v0 (ridx_main_v1 i k) = ix2 (i 1) k := fun k => funext fun a => Fin.ext (by
    match a with
    | ⟨0, _⟩ => rfl
    | ⟨1, _⟩ => rfl)
  have hbit : IntOp.cmpi .eq (IntOp.addi (BitVec.ofNat 32 (i 0).val) 0#32) (BitVec.ofNat 32 (i 1).val)
      = if (i 0).val = (i 1).val then 1#1 else 0#1 := by
    rw [show IntOp.addi (BitVec.ofNat 32 (i 0).val) 0#32 = BitVec.ofNat 32 (i 0).val from BitVec.add_zero _]
    exact eq_bit (idx2_lt0 i) (idx2_lt1 i)
  rw [val_main_v10_apply, val_main_v1_apply, val_main_v9_apply, val_main_v8_apply, val_main_cst_apply, val_main_v7_apply,
    val_main_v6_apply, val_main_v5_apply, val_main_v2_apply, val_main_v4_apply, val_main_c_apply, val_main_v3_apply, hbit]
  simp only [val_main_v0_apply, el, er]
  show (∑ k : Fin 128, h (ix2 (i 0) k) * h (ix2 (i 1) k))
      * (Ideal.ofBits .f32 0x3F800000#32 - (((if (i 0).val = (i 1).val then 1#1 else 0#1 : BitVec 1).toNat : ℝ) : EReal)) = _
  rw [one_word, mul_one_sub_bit]
  rfl

end Cert.ReferenceIdeal.RefValue

end
-- ==== Proof.GramBand.lean ====
/-
  The band kernel computes `gram`.

  At an entry (p, q) of the 256 × 8192 buffer the product stored first is the sum over k of x0[p,k] · x1[q,k]
  (`prod_apply`: the contraction runs over the second axis of BOTH operands, so no transpose is left). The square
  stored second replaces an entry by the literal zero exactly where its own row and column counters agree
  (`mask_apply`), and the square sits at columns [256·T, 256·T + 256) of the buffer at grid point T: so the buffer ends
  at zero where q = 256·T + p and at the product elsewhere (`band_apply`). Read through the windows — the row band
  is rows [256·T, 256·T + 256) of h, the second operand all of h, the buffer rows [256·T, 256·T + 256) of the
  result — that is `gram h` at (256·T + p, q): what point T writes back is its block of `gram h` (`flushed_eq`).
  The 32 blocks tile the result, so the result array ends at `gram h` (`final`).
-/
import proofs.«133447_g5858335392468_pilotgen1_76_8_alg».proof.Proof.BandRunIdeal
import proofs.«133447_g5858335392468_pilotgen1_76_8_alg».proof.Proof.Gram
import Idealize.ShloMosaic.PureOps.Ideal.Laws
import Idealize.ShloMosaic.Lib.ValueIdx
import Idealize.ShloMosaic.Lib.Pipeline.Value

set_option maxRecDepth 16384

noncomputable section

open scoped BigOperators

namespace Cert.KernelIdeal.GramValue

open Cert.KernelIdeal Cert.KernelIdeal.Gen Cert.KernelIdeal.Band Cert.Gram Idealize.ShloMosaic.DiagonalBit
open Idealize.ShloMosaic Idealize.ShloMosaic.TcCoe Idealize.SL.Sem Idealize.ShloMosaic.ValueIdx
open Idealize.ShloMosaic.Pipeline (Dat)

theorem zeros : (![0, 0] : Fin 2 → Nat) = fun _ => 0 := funext fun a => by fin_cases a <;> rfl

/-! ## The product at an entry -/

local notation "D" => dot_S256x128_S8192x128_S256x8192_1_1_0_0_n_n

theorem lhs_row (j : S256x8192.Idx) (q : (dot_S256x128_S8192x128_S256x8192_1_1_0_0_n_n).contr.Idx) : ((dot_S256x128_S8192x128_S256x8192_1_1_0_0_n_n).lhsIdx j q 0).val = (j 0).val := by
  unfold DotDims.lhsIdx
  rw [dif_neg (show ¬(0 : Fin S256x128.rank) ∈ (dot_S256x128_S8192x128_S256x8192_1_1_0_0_n_n).lhsBatch by decide), dif_pos (show (0 : Fin S256x128.rank) ∈ (dot_S256x128_S8192x128_S256x8192_1_1_0_0_n_n).lhsNonContracting by decide)]
  rfl
theorem lhs_col (j : S256x8192.Idx) (q : (dot_S256x128_S8192x128_S256x8192_1_1_0_0_n_n).contr.Idx) : ((dot_S256x128_S8192x128_S256x8192_1_1_0_0_n_n).lhsIdx j q 1).val = (q ⟨0, by decide⟩).val :=
  (dot_S256x128_S8192x128_S256x8192_1_1_0_0_n_n).lhsIdx_val_of_single rfl j q
theorem rhs_row (j : S256x8192.Idx) (q : (dot_S256x128_S8192x128_S256x8192_1_1_0_0_n_n).contr.Idx) : ((dot_S256x128_S8192x128_S256x8192_1_1_0_0_n_n).rhsIdx j q 0).val = (j 1).val := by
  unfold DotDims.rhsIdx
  rw [dif_neg (show ¬(0 : Fin S8192x128.rank) ∈ (dot_S256x128_S8192x128_S256x8192_1_1_0_0_n_n).rhsBatch by decide), dif_pos (show (0 : Fin S8192x128.rank) ∈ (dot_S256x128_S8192x128_S256x8192_1_1_0_0_n_n).rhsNonContracting by decide)]
  rfl
theorem rhs_col (j : S256x8192.Idx) (q : (dot_S256x128_S8192x128_S256x8192_1_1_0_0_n_n).contr.Idx) : ((dot_S256x128_S8192x128_S256x8192_1_1_0_0_n_n).rhsIdx j q 1).val = (q ⟨0, by decide⟩).val :=
  (dot_S256x128_S8192x128_S256x8192_1_1_0_0_n_n).rhsIdx_val_of_single rfl j q

/-- The product of a 256 × 128 block with the transpose of an 8192 × 128 block, into a zero accumulator, at (p, q):
    the inner product of row p of the first with row q of the second. -/
theorem prod_apply (x0 : Vec Ideal S256x128 .f32) (x1 : Vec Ideal S8192x128 .f32) (j : S256x8192.Idx) :
    prod x0 x1 j = ∑ k : Fin 128, x0 (ix2 (j 0) k) * x1 (ix2 (j 1) k) := by
  unfold prod k0_pay1
  rw [View.ld_unit_zero zeros, View.ld_unit_zero zeros]
  simp only [matmul]
  rw [Ideal.matmul_constant_zero_apply, ← Equiv.sum_comp (contrEquiv1 (dot_S256x128_S8192x128_S256x8192_1_1_0_0_n_n) 128 rfl rfl).symm]
  refine Finset.sum_congr rfl fun k _ => ?_
  have hk := contrEquiv1_symm_val (dot_S256x128_S8192x128_S256x8192_1_1_0_0_n_n) 128 rfl rfl k
  have el : (dot_S256x128_S8192x128_S256x8192_1_1_0_0_n_n).lhsIdx j ((contrEquiv1 (dot_S256x128_S8192x128_S256x8192_1_1_0_0_n_n) 128 rfl rfl).symm k) = ix2 (j 0) k := funext fun a => Fin.ext (by
    match a with
    | ⟨0, _⟩ => exact lhs_row _ _
    | ⟨1, _⟩ => exact (lhs_col _ _).trans hk)
  have er : (dot_S256x128_S8192x128_S256x8192_1_1_0_0_n_n).rhsIdx j ((contrEquiv1 (dot_S256x128_S8192x128_S256x8192_1_1_0_0_n_n) 128 rfl rfl).symm k) = ix2 (j 1) k := funext fun a => Fin.ext (by
    match a with
    | ⟨0, _⟩ => exact rhs_row _ _
    | ⟨1, _⟩ => exact (rhs_col _ _).trans hk)
  rw [el, er]
  rfl

/-! ## The diagonal mask at an entry -/

/-- The square with its own diagonal replaced by the literal zero. -/
theorem mask_apply (v : Vec Ideal S256x256 .f32) (y : S256x256.Idx) :
    k0_pay2 v y = if (y 0).val = (y 1).val then 0 else v y := by
  unfold k0_pay2
  show Scalar.select (IntOp.cmpi .eq (iota .tc S256x256 32 [0] iota_S256x256_d0_w32 y) (iota .tc S256x256 32 [1] iota_S256x256_d1_w32 y))
      (Scalar.ofBits (F := Ideal) .f32 0x00000000#32) (shapeCast S256x256 v shapeCasts_S256x256_S256x256 y) = _
  rw [iota_single_apply, iota_single_apply, shapeCast_self,
    eq_bit (by have := idx2_lt0 y; omega) (by have := idx2_lt1 y; omega)]
  split
  · rw [select_one]; exact Ideal.ofBits_zero_f32
  · rw [select_zero]

/-! ## The buffer after the body, at an entry -/

/-- At grid coordinates `i` the buffer ends at zero on the entries (p, 256·i + p) and at the product elsewhere. -/
theorem band_apply (i : grid0.Coords) (x0 : Vec Ideal S256x128 .f32) (x1 : Vec Ideal S8192x128 .f32) (j : S256x8192.Idx) :
    band i x0 x1 j = if (j 1).val = 256 * (i 0).val + (j 0).val then 0 else prod x0 x1 j := by
  have hout : ∀ L : List (View.Piece (Elt Ideal) S256x8192 .f32), View.canon (⟨rOut, prod x0 x1⟩ :: L) = prod x0 x1 :=
    fun L => View.canon_cons_unit_zero zeros _ _ L
  have hb : band i x0 x1 = View.canon [(⟨rDiag i, k0_pay2 (fun j' => prod x0 x1 ((rDiag i).toLoadRect.idx j'))⟩ : View.Piece (Elt Ideal) S256x8192 .f32),
      ⟨rOut, prod x0 x1⟩] := by
    unfold band; rw [hout []]
  rw [hb]
  generalize hw : k0_pay2 (fun j' => prod x0 x1 ((rDiag i).toLoadRect.idx j')) = w
  have hoff : ∀ a, k0_off1 i a = (![0, 256 * (i 0).val] : Fin 2 → Nat) a := fun a => by rw [k0_off1_eq]
  have h0 : k0_off1 i 0 = 0 := hoff 0
  have h1 : k0_off1 i 1 = 256 * (i 0).val := hoff 1
  have hj0 : (j 0).val < 256 := idx2_lt0 j
  by_cases hm : j ∈ (rDiag i).set
  · obtain ⟨y, rfl⟩ := (rDiag i).exists_idx_of_mem hm
    have e0 : (((rDiag i).idx y) 0).val = k0_off1 i 0 + 1 * (y 0).val := rfl
    have e1 : (((rDiag i).idx y) 1).val = k0_off1 i 1 + 1 * (y 1).val := rfl
    refine (View.canon_cons_emb (rDiag i) w [⟨rOut, prod x0 x1⟩] y).trans ?_
    rw [← hw, mask_apply]
    refine if_congr ?_ rfl rfl
    rw [e0, e1, h0, h1]; omega
  · refine (View.canon_cons_of_not_mem (⟨rDiag i, w⟩ : View.Piece (Elt Ideal) S256x8192 .f32) [⟨rOut, prod x0 x1⟩] hm).trans ?_
    rw [hout, if_neg]
    intro hq
    apply hm
    rw [Rect.mem_set_unit]
    intro a
    match a with
    | ⟨0, _⟩ =>
      show k0_off1 i 0 ≤ (j 0).val ∧ (j 0).val < k0_off1 i 0 + 256
      rw [h0]; omega
    | ⟨1, _⟩ =>
      show k0_off1 i 1 ≤ (j 1).val ∧ (j 1).val < k0_off1 i 1 + 256
      rw [h1]; omega

/-! ## What each point writes back, and the result array -/

variable (m : (ℓ : Loc nD τ sig) → Buf (Elt Ideal) ℓ) (ρ : Dev nD → PrngReg)

/-- The printed index maps over the 32 grid points: the row band and the output band move with the point, the
    whole matrix stays, and the point's one coordinate is its number. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ (grid0.coords t 0).val = t.val :=
  (by decide +kernel : ∀ t : Fin grid0.N, _)

/-- What point `t` writes back is block `t` of `gram` of the input array. -/
theorem flushed_eq (c : Dev nD) (t : Fin cfg0.N) :
    (dats m 0 c).flushed 2 t = ((cfg0.win 2).blk t).view.read (Elt Ideal) (gram (V m c main_arg0)) := by
  show (cfg0.win 2).cut (grid0.coords t) ((dats m 0 c).after 2 t) = _
  rw [after_out]
  obtain ⟨e00, e01, e10, e11, e20, e21, ect⟩ := idx_facts t
  funext y
  show band (grid0.coords t) (iblk m c 0 t) (iblk m c 1 t) y = gram (V m c main_arg0) (((cfg0.win 2).blk t).view.emb y)
  refine (band_apply (grid0.coords t) (iblk m c 0 t) (iblk m c 1 t) y).trans ?_
  have hr : ((((cfg0.win 2).blk t).view.emb y) 0).val = win0_2.index t (0 : Fin 2) * 256 + 1 * (y 0).val := rfl
  have hc : ((((cfg0.win 2).blk t).view.emb y) 1).val = win0_2.index t (1 : Fin 2) * 8192 + 1 * (y 1).val := rfl
  have hy0 : (y 0).val < 256 := (y 0).isLt
  unfold gram
  refine if_congr ?_ rfl ?_
  · rw [hr, hc, e20, e21, ect]; omega
  · refine (prod_apply (iblk m c 0 t) (iblk m c 1 t) y).trans ?_
    unfold rowDot
    refine Finset.sum_congr rfl fun k _ => ?_
    congr 1
    · show V m c main_arg0 (((cfg0.win 0).blk t).view.emb (ix2 (y 0) k)) = V m c main_arg0 (ix2 ((((cfg0.win 2).blk t).view.emb y) 0) k)
      congr 1; funext a; apply Fin.ext
      match a with
      | ⟨0, _⟩ =>
        show win0_0.index t (0 : Fin 2) * 256 + 1 * (y 0).val = ((((cfg0.win 2).blk t).view.emb y) 0).val
        rw [hr, e00, e20]
      | ⟨1, _⟩ =>
        show win0_0.index t (1 : Fin 2) * 128 + 1 * k.val = k.val
        rw [e01]; omega
    · show V m c main_arg0 (((cfg0.win 1).blk t).view.emb (ix2 (y 1) k)) = V m c main_arg0 (ix2 ((((cfg0.win 2).blk t).view.emb y) 1) k)
      congr 1; funext a; apply Fin.ext
      match a with
      | ⟨0, _⟩ =>
        show win0_1.index t (0 : Fin 2) * 8192 + 1 * (y 1).val = ((((cfg0.win 2).blk t).view.emb y) 1).val
        rw [hc, e10, e21]
      | ⟨1, _⟩ =>
        show win0_1.index t (1 : Fin 2) * 128 + 1 * k.val = k.val
        rw [e11]; omega

/-- An entry of the result is in point `t`'s block iff each coordinate is in the block's range on its axis. -/
theorem mem_blk (t : Fin cfg0.N) (i : S8192x8192.Idx) :
    i ∈ ((cfg0.win 2).blk t).view.set ↔ ∀ a : Fin 2, win0_2.index t a * S256x8192.size a ≤ (i a).val ∧ (i a).val < win0_2.index t a * S256x8192.size a + S256x8192.size a := by
  show i ∈ ((View.whole main_v0).slice (win0_2.rect t)).set ↔ _
  rw [View.set_slice_whole, Rect.mem_set_unit]
  exact Iff.rfl

/-- Every entry (r, c) of the result lies in the block of point r / 256, which writes back. -/
theorem cover (i : S8192x8192.Idx) : ∃ t : Fin cfg0.N, (cfg0.win 2).flush t = true ∧ i ∈ ((cfg0.win 2).blk t).view.set := by
  have hi0 : (i 0).val < 8192 := idx2_lt0 i
  have hi1 : (i 1).val < 8192 := idx2_lt1 i
  have hN : cfg0.N = 32 := N_0
  have hlt : (i 0).val / 256 < cfg0.N := by rw [hN]; omega
  obtain ⟨-, -, -, -, e20, e21, -⟩ := idx_facts ⟨(i 0).val / 256, hlt⟩
  refine ⟨⟨(i 0).val / 256, hlt⟩, flush0_2 _, ?_⟩
  rw [mem_blk]
  intro a
  match a with
  | ⟨0, _⟩ =>
    show win0_2.index ⟨(i 0).val / 256, hlt⟩ (0 : Fin 2) * 256 ≤ (i 0).val ∧ (i 0).val < win0_2.index ⟨(i 0).val / 256, hlt⟩ (0 : Fin 2) * 256 + 256
    rw [e20]; show (i 0).val / 256 * 256 ≤ (i 0).val ∧ (i 0).val < (i 0).val / 256 * 256 + 256; omega
  | ⟨1, _⟩ =>
    show win0_2.index ⟨(i 0).val / 256, hlt⟩ (1 : Fin 2) * 8192 ≤ (i 1).val ∧ (i 1).val < win0_2.index ⟨(i 0).val / 256, hlt⟩ (1 : Fin 2) * 8192 + 8192
    rw [e21]; omega

/-- The result array after the run is `gram` of the input array. -/
theorem final (c : Dev nD) : (dats m 0 c).arrAt 2 cfg0.N = gram (m ((c.tc : Thread nD τ).loc main_arg0)) :=
  (dats m 0 c).arrAt_eq_of_cover 2 (gram (V m c main_arg0)) (fun t _ => flushed_eq m c t) cover

/-- The run, read: the result array ends at `gram` of the argument, the argument as launched. -/
theorem run : θ_run defs (onTc (τ := τ) (main (F := Ideal))) ⟨m, fun _ => 0, ρ⟩ fun r => ∀ c : Dev nD,
      r.2.mem ((c.tc : Thread nD τ).loc main_v0) = gram (m ((c.tc : Thread nD τ).loc main_arg0))
      ∧ r.2.mem ((c.tc : Thread nD τ).loc main_arg0) = m ((c.tc : Thread nD τ).loc main_arg0) :=
  (θ_run defs _ _).mono (fun r h c => ⟨(h c 2).trans (final m c), kept_input m r h c⟩) (run_main m ρ)

end Cert.KernelIdeal.GramValue

end
-- ==== Proof.lean ====
/-
  The pairwise inner products of the rows of an 8192 × 128 matrix h, with the diagonal set to zero: a band kernel
  against the reference h · hᵀ ∗ (1 − eye).

  Both compute the same sum for every pair of rows; they differ only in how the diagonal gets its zeros. The kernel
  overwrites the diagonal entries of each 256-row band with the literal zero; the reference multiplies every entry
  by one less the bit "row = column". On the extended reals x · 1 = x and x · 0 = 0 for every x, so the two agree
  entry by entry, with no appeal to finiteness of the inputs.

  * The three frames: the kernel's two programs run to the end, fault nowhere and never write their argument (the
    band run, once per float instance); the reference's frame is its run with the result dropped.
  * Nothing was rewritten between the kernel and its idealization, so that conjunct is `True`.
  * The two idealized programs both end at `gram` of the argument, from memories that agree on it.
-/
import proofs.«133447_g5858335392468_pilotgen1_76_8_alg».proof.Defs
import proofs.«133447_g5858335392468_pilotgen1_76_8_alg».proof.Proof.Gen.Kernel
import proofs.«133447_g5858335392468_pilotgen1_76_8_alg».proof.Proof.Gen.Kernel.Skeleton
import proofs.«133447_g5858335392468_pilotgen1_76_8_alg».proof.Proof.Gen.Kernel.Launch
import proofs.«133447_g5858335392468_pilotgen1_76_8_alg».proof.Proof.Gen.Kernel.Points
import proofs.«133447_g5858335392468_pilotgen1_76_8_alg».proof.Proof.Gen.KernelIdeal
import proofs.«133447_g5858335392468_pilotgen1_76_8_alg».proof.Proof.Gen.KernelIdeal.Skeleton
import proofs.«133447_g5858335392468_pilotgen1_76_8_alg».proof.Proof.Gen.KernelIdeal.Launch
import proofs.«133447_g5858335392468_pilotgen1_76_8_alg».proof.Proof.Gen.KernelIdeal.Points
import proofs.«133447_g5858335392468_pilotgen1_76_8_alg».proof.Proof.Gen.ReferenceIdeal
import proofs.«133447_g5858335392468_pilotgen1_76_8_alg».proof.Proof.Gen.Pre_finite_inputs
import proofs.«133447_g5858335392468_pilotgen1_76_8_alg».proof.Proof.Gen.ReferenceIdeal.Run
import proofs.«133447_g5858335392468_pilotgen1_76_8_alg».proof.Proof.Gen.ReferenceIdeal.Read
import proofs.«133447_g5858335392468_pilotgen1_76_8_alg».proof.Proof.BandRun
import proofs.«133447_g5858335392468_pilotgen1_76_8_alg».proof.Proof.BandRunIdeal
import proofs.«133447_g5858335392468_pilotgen1_76_8_alg».proof.Proof.Gram
import proofs.«133447_g5858335392468_pilotgen1_76_8_alg».proof.Proof.GramRef
import proofs.«133447_g5858335392468_pilotgen1_76_8_alg».proof.Proof.GramBand
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Band.frame m ρ

theorem frame_kernel_ideal : Cert.frame_KernelIdeal := fun m ρ _ => Cert.KernelIdeal.Band.frame m ρ

theorem frame_reference : Cert.frame_ReferenceIdeal := fun m ρ _ =>
  (θ_run Cert.ReferenceIdeal.defs _ _).mono (fun _ h c => (h c).2) (Cert.ReferenceIdeal.Value.run (F := Ideal) m ρ)

/-- Both idealized programs end with the result array at `gram` of the argument array. -/
theorem algebraic : Cert.algebraic_KernelIdeal_ReferenceIdeal := by
  intro m ρ m' ρ' _ hagree
  refine ⟨fun c => Cert.Gram.gram (m ((c.tc : Thread Cert.KernelIdeal.nD Cert.KernelIdeal.τ).loc Cert.KernelIdeal.main_arg0)),
    Cert.KernelIdeal.GramValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v10_eq, Cert.ReferenceIdeal.RefValue.ref_eq_gram, hagree c]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
